-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3x60x240 : Shape := ⟨4, ![2048, 3, 60, 240]⟩
abbrev S360x180 : Shape := ⟨2, ![360, 180]⟩
abbrev S360x90 : Shape := ⟨2, ![360, 90]⟩
abbrev S360 : Shape := ⟨1, ![360]⟩
abbrev S_ : Shape := ⟨0, ![]⟩

class Facts : Prop where
  bcast_S_S2048x3x60x240 : S_.BroadcastsInDim S2048x3x60x240 (![] : Fin 0 → Fin S2048x3x60x240.rank)
  reducesTo_S2048x3x60x240_S_d0_1_2_3 : S2048x3x60x240.ReducesTo [0, 1, 2, 3] S_
  h_S_ : 0 < S_.numel
  bcast_S_S360x180 : S_.BroadcastsInDim S360x180 (![] : Fin 0 → Fin S360x180.rank)
  reducesTo_S360x180_S_d0_1 : S360x180.ReducesTo [0, 1] S_
  bcast_S_S360x90 : S_.BroadcastsInDim S360x90 (![] : Fin 0 → Fin S360x90.rank)
  reducesTo_S360x90_S_d0_1 : S360x90.ReducesTo [0, 1] S_
  bcast_S_S360 : S_.BroadcastsInDim S360 (![] : Fin 0 → Fin S360.rank)
  reducesTo_S360_S_d0 : S360.ReducesTo [0] S_

variable [Facts]

def fn_part1 {F : FTy → Type} [FloatOps F] (main_arg4 : FVec F S360 .f32) (main_v13 : IVec S_ 1) (main_v16 : IVec S360 1) : IVec S_ 1 :=
  let main_c_5 : IVec S_ 1 := constantI S_ 1 1#1
  let main_v17 : IVec S_ 1 := (fun x v => Host.reduce IntOp.andi x v reducesTo_S360_S_d0 h_S_) main_v16 main_c_5
  let main_v18 : IVec S_ 1 := andi main_v13 main_v17
  let main_v19 : FVec F S360 .f32 := Host.absf main_arg4
  let main_cst_6 : FVec F S_ .f32 := constant S_ .f32 0x7F800000#32
  let main_v20 : FVec F S360 .f32 := broadcastInDim S360 ![] bcast_S_S360 main_cst_6
  let main_v21 : IVec S360 1 := cmpf .olt main_v19 main_v20
  let main_c_7 : IVec S_ 1 := constantI S_ 1 1#1
  let main_v22 : IVec S_ 1 := (fun x v => Host.reduce IntOp.andi x v reducesTo_S360_S_d0 h_S_) main_v21 main_c_7
  let main_v23 : IVec S_ 1 := andi main_v18 main_v22
  main_v23

def fn {F : FTy → Type} [FloatOps F] (main_arg0 : FVec F S2048x3x60x240 .f32) (main_arg1 : FVec F S360x180 .f32) (main_arg2 : FVec F S360x90 .f32) (main_arg3 : FVec F S360 .f32) (main_arg4 : FVec F S360 .f32) : IVec S_ 1 :=
  let main_v0 : FVec F S2048x3x60x240 .f32 := Host.absf main_arg0
  let main_cst : FVec F S_ .f32 := constant S_ .f32 0x7F800000#32
  let main_v1 : FVec F S2048x3x60x240 .f32 := broadcastInDim S2048x3x60x240 ![] bcast_S_S2048x3x60x240 main_cst
  let main_v2 : IVec S2048x3x60x240 1 := cmpf .olt main_v0 main_v1
  let main_c : IVec S_ 1 := constantI S_ 1 1#1
  let main_v3 : IVec S_ 1 := (fun x v => Host.reduce IntOp.andi x v reducesTo_S2048x3x60x240_S_d0_1_2_3 h_S_) main_v2 main_c
  let main_v4 : FVec F S360x180 .f32 := Host.absf main_arg1
  let main_cst_0 : FVec F S_ .f32 := constant S_ .f32 0x7F800000#32
  let main_v5 : FVec F S360x180 .f32 := broadcastInDim S360x180 ![] bcast_S_S360x180 main_cst_0
  let main_v6 : IVec S360x180 1 := cmpf .olt main_v4 main_v5
  let main_c_1 : IVec S_ 1 := constantI S_ 1 1#1
  let main_v7 : IVec S_ 1 := (fun x v => Host.reduce IntOp.andi x v reducesTo_S360x180_S_d0_1 h_S_) main_v6 main_c_1
  let main_v8 : IVec S_ 1 := andi main_v3 main_v7
  let main_v9 : FVec F S360x90 .f32 := Host.absf main_arg2
  let main_cst_2 : FVec F S_ .f32 := constant S_ .f32 0x7F800000#32
  let main_v10 : FVec F S360x90 .f32 := broadcastInDim S360x90 ![] bcast_S_S360x90 main_cst_2
  let main_v11 : IVec S360x90 1 := cmpf .olt main_v9 main_v10
  let main_c_3 : IVec S_ 1 := constantI S_ 1 1#1
  let main_v12 : IVec S_ 1 := (fun x v => Host.reduce IntOp.andi x v reducesTo_S360x90_S_d0_1 h_S_) main_v11 main_c_3
  let main_v13 : IVec S_ 1 := andi main_v8 main_v12
  let main_v14 : FVec F S360 .f32 := Host.absf main_arg3
  let main_cst_4 : FVec F S_ .f32 := constant S_ .f32 0x7F800000#32
  let main_v15 : FVec F S360 .f32 := broadcastInDim S360 ![] bcast_S_S360 main_cst_4
  let main_v16 : IVec S360 1 := cmpf .olt main_v14 main_v15
  fn_part1 (F := F) main_arg4 main_v13 main_v16
-- ==== Kernel.lean ====
abbrev S2048x3x60x240 : Shape := ⟨4, ![2048, 3, 60, 240]⟩
abbrev S360x180 : Shape := ⟨2, ![360, 180]⟩
abbrev S360x90 : Shape := ⟨2, ![360, 90]⟩
abbrev S360 : Shape := ⟨1, ![360]⟩
abbrev S180x360 : Shape := ⟨2, ![180, 360]⟩
abbrev S1x360 : Shape := ⟨2, ![1, 360]⟩
abbrev S2048x240x90 : Shape := ⟨3, ![2048, 240, 90]⟩
abbrev S8x3x60x240 : Shape := ⟨4, ![8, 3, 60, 240]⟩
abbrev S8x240x90 : Shape := ⟨3, ![8, 240, 90]⟩
abbrev S8x180x240 : Shape := ⟨3, ![8, 180, 240]⟩
abbrev S8x240x180 : Shape := ⟨3, ![8, 240, 180]⟩
abbrev S1920x180 : Shape := ⟨2, ![1920, 180]⟩
abbrev S1920x360 : Shape := ⟨2, ![1920, 360]⟩
abbrev S1920x90 : Shape := ⟨2, ![1920, 90]⟩

abbrev nBuf : Space → Nat
  | .hbm => 9
  | .vmem => 6
  | .smem => 0
  | _ => 0

abbrev bufTy : (tb : Table) → Fin (tcTables nBuf tb) → BufTy
  | .hbm, ⟨0, _⟩ => ⟨S2048x3x60x240, .f32⟩
  | .hbm, ⟨1, _⟩ => ⟨S360x180, .f32⟩
  | .hbm, ⟨2, _⟩ => ⟨S360x90, .f32⟩
  | .hbm, ⟨3, _⟩ => ⟨S360, .f32⟩
  | .hbm, ⟨4, _⟩ => ⟨S360, .f32⟩
  | .hbm, ⟨5, _⟩ => ⟨S180x360, .f32⟩
  | .hbm, ⟨6, _⟩ => ⟨S360, .f32⟩
  | .hbm, ⟨7, _⟩ => ⟨S1x360, .f32⟩
  | .hbm, ⟨8, _⟩ => ⟨S2048x240x90, .f32⟩
  | .local _ .vmem, ⟨0, _⟩ => ⟨S8x3x60x240, .f32⟩
  | .local _ .vmem, ⟨1, _⟩ => ⟨S8x3x60x240, .f32⟩
  | .local _ .vmem, ⟨2, _⟩ => ⟨S180x360, .f32⟩
  | .local _ .vmem, ⟨3, _⟩ => ⟨S1x360, .f32⟩
  | .local _ .vmem, ⟨4, _⟩ => ⟨S8x240x90, .f32⟩
  | .local _ .vmem, ⟨5, _⟩ => ⟨S8x240x90, .f32⟩
  | _, _ => ⟨S2048x3x60x240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3x60x240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S180x360 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x360 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x240x90 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S360x180_S180x360_1_0 : S360x180.Transposes [1, 0] S180x360
  shapeCasts_S360_S1x360 : S360.ShapeCasts S1x360
  inb_S8x3x60x240_S8x3x60x240_0_0_0_0 : ∀ a, (![0, 0, 0, 0] : Fin 4 → Nat) a + S8x3x60x240.size a ≤ S8x3x60x240.size a
  h_S8x3x60x240 : 0 < S8x3x60x240.numel
  shapeCasts_S8x3x60x240_S8x180x240 : S8x3x60x240.ShapeCasts S8x180x240
  transposes_S8x180x240_p0_2_1_S8x240x180 : S8x180x240.Transposes [0, 2, 1] S8x240x180
  shapeCasts_S8x240x180_S1920x180 : S8x240x180.ShapeCasts S1920x180
  inb_S180x360_S180x360_0_0 : ∀ a, (![0, 0] : Fin 2 → Nat) a + S180x360.size a ≤ S180x360.size a
  h_S180x360 : 0 < S180x360.numel
  shapeCasts_S180x360_S180x360 : S180x360.ShapeCasts S180x360
  inb_S1x360_S1x360_0_0 : ∀ a, (![0, 0] : Fin 2 → Nat) a + S1x360.size a ≤ S1x360.size a
  h_S1x360 : 0 < S1x360.numel
  shapeCasts_S1x360_S1x360 : S1x360.ShapeCasts S1x360
  bitsLt_bf16_f32 : FTy.bits .bf16 < FTy.bits .f32
  broadcasts_S1x360_S1920x360 : S1x360.Broadcasts S1920x360
  slices_S1920x360_o0_0_S1920x90 : S1920x360.Slices ![0, 0] S1920x90
  slices_S1920x360_o0_90_S1920x90 : S1920x360.Slices ![0, 90] S1920x90
  slices_S1920x360_o0_180_S1920x90 : S1920x360.Slices ![0, 180] S1920x90
  slices_S1920x360_o0_270_S1920x90 : S1920x360.Slices ![0, 270] S1920x90
  shapeCasts_S1920x90_S8x240x90 : S1920x90.ShapeCasts S8x240x90
  inb_S8x240x90_S8x240x90_0_0_0 : ∀ a, (![0, 0, 0] : Fin 3 → Nat) a + S8x240x90.size a ≤ S8x240x90.size a
  h_S8x240x90 : 0 < S8x240x90.numel
  dot_S1920x180_S180x360_S1920x360_1_0_0_1_n_n_wf : DotDims.WF S1920x180 S180x360 S1920x360 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x60x240.size a ≤ S2048x3x60x240.size a
  hwx0_0 : ∀ i : grid0.Coords, EltTy.bits .f32 = 32 ∨ (Rect.block (s := S2048x3x60x240) S8x3x60x240.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S180x360.size a ≤ S180x360.size a
  hwx0_1 : ∀ i : grid0.Coords, EltTy.bits .f32 = 32 ∨ (Rect.block (s := S180x360) S180x360.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x360.size a ≤ S1x360.size a
  hwx0_2 : ∀ i : grid0.Coords, EltTy.bits .f32 = 32 ∨ (Rect.block (s := S1x360) S1x360.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x240x90.size a ≤ S2048x240x90.size a
  hwx0_3 : ∀ i : grid0.Coords, EltTy.bits .f32 = 32 ∨ (Rect.block (s := S2048x240x90) S8x240x90.size (cc0_transform_3 i) (hinb0_3 i)).WholeWords (EltTy.packing .f32)

variable [Facts₀]

def dot_S1920x180_S180x360_S1920x360_1_0_0_1_n_n : DotDims S1920x180 S180x360 S1920x360 where
  lhsContracting := [1]
  rhsContracting := [0]
  lhsNonContracting := [0]
  rhsNonContracting := [1]
  lhsBatch := []
  rhsBatch := []
  wf := dot_S1920x180_S180x360_S1920x360_1_0_0_1_n_n_wf

abbrev win0_0 : Pipeline.Window sig grid0 :=
  Pipeline.Window.ofSpec (Memref.whole main_arg0) S8x3x60x240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S180x360.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x360.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x240x90.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x3x60x240 : Shape := ⟨4, ![2048, 3, 60, 240]⟩
abbrev S360x180 : Shape := ⟨2, ![360, 180]⟩
abbrev S360x90 : Shape := ⟨2, ![360, 90]⟩
abbrev S360 : Shape := ⟨1, ![360]⟩
abbrev S2048x240x3x60 : Shape := ⟨4, ![2048, 240, 3, 60]⟩
abbrev S2048x240x180 : Shape := ⟨3, ![2048, 240, 180]⟩
abbrev S2048x240x360 : Shape := ⟨3, ![2048, 240, 360]⟩
abbrev S1x1x360 : Shape := ⟨3, ![1, 1, 360]⟩
abbrev S2048x240x90 : Shape := ⟨3, ![2048, 240, 90]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x3x60x240, .f32⟩
  | .hbm, ⟨1, _⟩ => ⟨S360x180, .f32⟩
  | .hbm, ⟨2, _⟩ => ⟨S360x90, .f32⟩
  | .hbm, ⟨3, _⟩ => ⟨S360, .f32⟩
  | .hbm, ⟨4, _⟩ => ⟨S360, .f32⟩
  | .hbm, ⟨5, _⟩ => ⟨S2048x240x3x60, .f32⟩
  | .hbm, ⟨6, _⟩ => ⟨S2048x240x180, .f32⟩
  | .hbm, ⟨7, _⟩ => ⟨S2048x240x360, .f32⟩
  | .hbm, ⟨8, _⟩ => ⟨S1x1x360, .f32⟩
  | .hbm, ⟨9, _⟩ => ⟨S2048x240x360, .f32⟩
  | .hbm, ⟨10, _⟩ => ⟨S2048x240x360, .f32⟩
  | .hbm, ⟨11, _⟩ => ⟨S1x1x360, .f32⟩
  | .hbm, ⟨12, _⟩ => ⟨S2048x240x360, .f32⟩
  | .hbm, ⟨13, _⟩ => ⟨S2048x240x360, .f32⟩
  | .hbm, ⟨14, _⟩ => ⟨S2048x240x90, .f32⟩
  | .hbm, ⟨15, _⟩ => ⟨S2048x240x90, .f32⟩
  | .hbm, ⟨16, _⟩ => ⟨S2048x240x90, .f32⟩
  | .hbm, ⟨17, _⟩ => ⟨S2048x240x90, .f32⟩
  | .hbm, ⟨18, _⟩ => ⟨S2048x240x90, .f32⟩
  | .hbm, ⟨19, _⟩ => ⟨S2048x240x90, .f32⟩
  | .hbm, ⟨20, _⟩ => ⟨S_, .f32⟩
  | .hbm, ⟨21, _⟩ => ⟨S2048x240x90, .f32⟩
  | .hbm, ⟨22, _⟩ => ⟨S2048x240x90, .f32⟩
  | .hbm, ⟨23, _⟩ => ⟨S_, .f32⟩
  | .hbm, ⟨24, _⟩ => ⟨S2048x240x90, .f32⟩
  | .hbm, ⟨25, _⟩ => ⟨S2048x240x90, .f32⟩
  | .hbm, ⟨26, _⟩ => ⟨S2048x240x90, .f32⟩
  | .hbm, ⟨27, _⟩ => ⟨S2048x240x90, .f32⟩
  | .hbm, ⟨28, _⟩ => ⟨S2048x240x90, .f32⟩
  | .hbm, ⟨29, _⟩ => ⟨S2048x240x90, .f32⟩
  | .hbm, ⟨30, _⟩ => ⟨S_, .f32⟩
  | .hbm, ⟨31, _⟩ => ⟨S2048x240x90, .f32⟩
  | .hbm, ⟨32, _⟩ => ⟨S2048x240x90, .f32⟩
  | .hbm, ⟨33, _⟩ => ⟨S_, .f32⟩
  | .hbm, ⟨34, _⟩ => ⟨S2048x240x90, .f32⟩
  | .hbm, ⟨35, _⟩ => ⟨S2048x240x90, .f32⟩
  | .hbm, ⟨36, _⟩ => ⟨S2048x240x90, .f32⟩
  | .hbm, ⟨37, _⟩ => ⟨S2048x240x90, .f32⟩
  | .hbm, ⟨38, _⟩ => ⟨S2048x240x90, .f32⟩
  | .hbm, ⟨39, _⟩ => ⟨S2048x240x90, .f32⟩
  | .hbm, ⟨40, _⟩ => ⟨S_, .f32⟩
  | .hbm, ⟨41, _⟩ => ⟨S2048x240x90, .f32⟩
  | .hbm, ⟨42, _⟩ => ⟨S2048x240x90, .f32⟩
  | .hbm, ⟨43, _⟩ => ⟨S_, .f32⟩
  | .hbm, ⟨44, _⟩ => ⟨S2048x240x90, .f32⟩
  | .hbm, ⟨45, _⟩ => ⟨S2048x240x90, .f32⟩
  | _, _ => ⟨S2048x3x60x240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  transposes_S2048x3x60x240_S2048x240x3x60_0_3_1_2 : S2048x3x60x240.Transposes [0, 3, 1, 2] S2048x240x3x60
  shapeCasts_S2048x240x3x60_S2048x240x180 : S2048x240x3x60.ShapeCasts S2048x240x180
  bcast_S360_S1x1x360_2 : S360.BroadcastsInDim S1x1x360 (![2] : Fin 1 → Fin S1x1x360.rank)
  bcast_S1x1x360_S2048x240x360_0_1_2 : S1x1x360.BroadcastsInDim S2048x240x360 (![0, 1, 2] : Fin 3 → Fin S2048x240x360.rank)
  slices_S2048x240x360_S2048x240x90_0_0_0 : S2048x240x360.Slices ![0, 0, 0] S2048x240x90
  slices_S2048x240x360_S2048x240x90_0_0_90 : S2048x240x360.Slices ![0, 0, 90] S2048x240x90
  slices_S2048x240x360_S2048x240x90_0_0_180 : S2048x240x360.Slices ![0, 0, 180] S2048x240x90
  slices_S2048x240x360_S2048x240x90_0_0_270 : S2048x240x360.Slices ![0, 0, 270] S2048x240x90
  bcast_S_S2048x240x90 : S_.BroadcastsInDim S2048x240x90 (![] : Fin 0 → Fin S2048x240x90.rank)
  dot_S2048x240x180_S360x180_S2048x240x360_2_1_01_0_n_n_wf : DotDims.WF S2048x240x180 S360x180 S2048x240x360 [2] [1] [0, 1] [0] [] []

variable [Facts₀]

def dot_S2048x240x180_S360x180_S2048x240x360_2_1_01_0_n_n : DotDims S2048x240x180 S360x180 S2048x240x360 where
  lhsContracting := [2]
  rhsContracting := [1]
  lhsNonContracting := [0, 1]
  rhsNonContracting := [0]
  lhsBatch := []
  rhsBatch := []
  wf := dot_S2048x240x180_S360x180_S2048x240x360_2_1_01_0_n_n_wf

class Facts : Prop extends Facts₀ where

variable [Facts]
-- ==== Proof.CellSpec.lean ====
/-
  What both programs compute, as one function of the argument arrays, index by index, on the extended reals.

  The input `x` is a batch of 2048 images of 3 channels × 60 rows × 240 columns. Column `t` of an image is read as
  time step `t`; its 180 features are the 3 × 60 entries of that column, feature `k` being channel `k / 60`, row
  `k % 60`. Each time step goes through one LSTM cell whose hidden and cell state are ZERO, so the recurrent weights
  never contribute and the steps are independent: the four gate pre-activations of sample `b` at step `t` are

      pre g = (∑ k, x[b, k/60, k%60, t] · W[g, k]) + b_ih[g] + b_hh[g]        (g < 360 = 4 · 90),

  the gates are input `i = σ (pre h)`, cell candidate `g = tanh (pre (180 + h))`, output `o = σ (pre (270 + h))` (the
  forget gate multiplies the zero cell state and drops out), the new cell state is `c = i · g`, the new hidden state
  `o · tanh c`, and the result is `σ (o · tanh c)` — `σ x = 1 / (1 + e⁻ˣ)` the logistic function.
-/
import Idealize.ShloMosaic.PureOps.Ideal
import Idealize.ShloMosaic.PureOps.IdealRules
import Idealize.ShloMosaic.Lib.ValueIdx

noncomputable section

open scoped BigOperators

namespace Cert.ZeroStateCell

open Idealize.ShloMosaic Idealize.ShloMosaic.ValueIdx

/-- Feature `k` of a time step is an entry of channel `k / 60` -/
abbrev chan (k : Fin 180) : Fin 3 := ⟨k.val / 60, by have := k.isLt; omega⟩
/-- at row `k % 60`. -/
abbrev row (k : Fin 180) : Fin 60 := ⟨k.val % 60, by have := k.isLt; omega⟩

/-- The pre-activation of gate unit `g` for sample `b` at time step `t`: the features of column `t` against row `g` of the
    input weights, plus the two biases (added one after the other). -/
def preGate (x : (⟨4, ![2048, 3, 60, 240]⟩ : Shape).Idx → EReal) (w : (⟨2, ![360, 180]⟩ : Shape).Idx → EReal)
    (bi bh : (⟨1, ![360]⟩ : Shape).Idx → EReal) (b : Fin 2048) (t : Fin 240) (g : Fin 360) : EReal :=
  (∑ k : Fin 180, x (ix4 b (chan k) (row k) t) * w (ix2 g k)) + bi (ix1 g) + bh (ix1 g)

/-- One cell step from zero state, read at hidden unit `h`, from the 360 gate pre-activations:
    `σ (σ (pre (270 + h)) · tanh (σ (pre h) · tanh (pre (180 + h))))`. -/
def cellOut (pre : Fin 360 → EReal) (h : Fin 90) : EReal :=
  Ideal.logistic (Ideal.logistic (pre ⟨270 + h.val, by have := h.isLt; omega⟩)
    * Ideal.tanh (Ideal.logistic (pre ⟨h.val, by have := h.isLt; omega⟩) * Ideal.tanh (pre ⟨180 + h.val, by have := h.isLt; omega⟩)))

/-- The whole result [2048, 240, 90]: entry `(b, t, h)` is the cell's output at hidden unit `h` for sample `b`, step `t`. -/
def cellArray (x : (⟨4, ![2048, 3, 60, 240]⟩ : Shape).Idx → EReal) (w : (⟨2, ![360, 180]⟩ : Shape).Idx → EReal)
    (bi bh : (⟨1, ![360]⟩ : Shape).Idx → EReal) : (⟨3, ![2048, 240, 90]⟩ : Shape).Idx → EReal :=
  fun i => cellOut (preGate x w bi bh (i 0) (i 1)) (i 2)

/-- The binary32 pattern of one denotes 1. -/
theorem one_f32 : Ideal.ofBits .f32 0x3F800000#32 = 1 := IdealRules.sign_bit.ideal_onePat .f32

/-- The logistic function spelled out with a quotient, a sum, an exponential and a negation, the two ones written as
    binary32 patterns, IS `Ideal.logistic`: that function is defined as `1 / (1 + e⁻ˣ)` on every extended real. -/
theorem quotient_eq_logistic (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = Ideal.logistic x
  rw [one_f32]
  rfl

/-- Adding the sum of the two biases at once, or one bias after the other, is the same on the extended reals (addition
    there is associative, infinities included). -/
theorem preGate_bias_sum (s a b : EReal) : s + (a + b) = s + a + b := (add_assoc s a b).symm

end Cert.ZeroStateCell

end
-- ==== Proof.RefCell.lean ====
/-
  The reference computes the cell array. Its stages are read one operation at a time: the transposed and regrouped
  input is `x[b, k/60, k%60, t]` at position `(b, t, k)`, the contraction with the weights is the sum over the 180
  features, the two biases are added one after the other, the four slices are the gates' pre-activations at offsets
  0, 90, 180, 270, and each quotient `1 / (1 + e⁻ᶻ)` is the logistic function.
-/
import proofs.«139123_j8718783611479_1_alg».proof.Proof.Gen.ReferenceIdeal.Read
import proofs.«139123_j8718783611479_1_alg».proof.Proof.CellSpec

noncomputable section

open scoped BigOperators

namespace Cert.ReferenceIdeal.CellValue

open Cert.ReferenceIdeal Cert.ReferenceIdeal.Read Idealize.ShloMosaic Idealize.ShloMosaic.ValueIdx Cert.ZeroStateCell

variable (x0 : (⟨S2048x3x60x240, .f32⟩ : BufTy).Contents (Elt Ideal)) (x1 : (⟨S360x180, .f32⟩ : BufTy).Contents (Elt Ideal))
  (x3 x4 : (⟨S360, .f32⟩ : BufTy).Contents (Elt Ideal))

/-- Position `(b, t, k)` of the regrouped input is entry `(b, k / 60, k % 60, t)` of `x`: the row-major position
    `(b · 240 + t) · 180 + k` splits as `((b · 240 + t) · 3 + k / 60) · 60 + k % 60`. -/
theorem feature_index (b : Fin 2048) (t : Fin 240) (g : Fin 360) (k : Fin 180) :
    idx_main_v0 (idx_main_v1 (lidx_main_v2 (ix3 b t g) k)) = ix4 b (chan k) (row k) t := by
  have hb := b.isLt; have ht := t.isLt; have hk := k.isLt
  funext a
  apply Fin.ext
  match a with
  | ⟨0, _⟩ => show ((b.val * 240 + t.val) * 180 + k.val) / 43200 = b.val; omega
  | ⟨1, _⟩ => show ((b.val * 240 + t.val) * 180 + k.val) / 60 % 3 = k.val / 60; omega
  | ⟨2, _⟩ => show ((b.val * 240 + t.val) * 180 + k.val) % 60 = k.val % 60; omega
  | ⟨3, _⟩ => show ((b.val * 240 + t.val) * 180 + k.val) / 180 % 240 = t.val; omega

theorem weight_index (b : Fin 2048) (t : Fin 240) (g : Fin 360) (k : Fin 180) :
    ridx_main_v2 (ix3 b t g) k = ix2 g k := by
  funext a
  match a with
  | ⟨0, _⟩ => rfl
  | ⟨1, _⟩ => rfl

theorem bias_index (b : Fin 2048) (t : Fin 240) (g : Fin 360) :
    idx_main_v3 (idx_main_v4 (ix3 b t g)) = ix1 g ∧ idx_main_v6 (idx_main_v7 (ix3 b t g)) = ix1 g := by
  constructor <;> (funext a; match a with | ⟨0, _⟩ => rfl)

/-- The biased product at `(b, t, g)` is the pre-activation of gate unit `g`. -/
theorem gates_apply (b : Fin 2048) (t : Fin 240) (g : Fin 360) :
    val_main_v8 (F := Ideal) x0 x1 x3 x4 (ix3 b t g) = preGate x0 x1 x3 x4 b t g := by
  rw [val_main_v8_apply, val_main_v5_apply, val_main_v2_apply, val_main_v4_apply, val_main_v3_apply, val_main_v7_apply,
    val_main_v6_apply, (bias_index b t g).1, (bias_index b t g).2]
  simp only [val_main_v1_apply, val_main_v0_apply, feature_index, weight_index]
  rfl

/-- The four slices read the gates at their offsets. -/
theorem slice_index (b : Fin 2048) (t : Fin 240) (h : Fin 90) :
    idx_main_v9 (ix3 b t h) = ix3 b t ⟨h.val, by have := h.isLt; omega⟩
    ∧ idx_main_v11 (ix3 b t h) = ix3 b t ⟨180 + h.val, by have := h.isLt; omega⟩
    ∧ idx_main_v12 (ix3 b t h) = ix3 b t ⟨270 + h.val, by have := h.isLt; omega⟩ := by
  refine ⟨?_, ?_, ?_⟩ <;> (funext a; match a with | ⟨0, _⟩ => rfl | ⟨1, _⟩ => rfl | ⟨2, _⟩ => rfl)

/-- The reference's last stage is the cell array. -/
theorem result_eq : val_main_v34 (F := Ideal) x0 x1 x3 x4 = cellArray x0 x1 x3 x4 := by
  funext i
  obtain ⟨b, t, h, rfl⟩ : ∃ (b : Fin 2048) (t : Fin 240) (h : Fin 90), i = ix3 b t h := ⟨i 0, i 1, i 2, eq_ix3 i⟩
  simp only [val_main_v34_apply, val_main_v33_apply, val_main_cst_4_apply, val_main_v32_apply, val_main_v31_apply,
    val_main_cst_3_apply, val_main_v30_apply, val_main_v29_apply, val_main_v28_apply, val_main_v27_apply, val_main_v26_apply,
    val_main_v25_apply, val_main_cst_2_apply, val_main_v24_apply, val_main_v23_apply, val_main_cst_1_apply, val_main_v22_apply,
    val_main_v21_apply, val_main_v20_apply, val_main_v19_apply, val_main_v18_apply, val_main_v17_apply, val_main_cst_0_apply,
    val_main_v16_apply, val_main_v15_apply, val_main_cst_apply, val_main_v14_apply, val_main_v13_apply, val_main_v12_apply,
    val_main_v11_apply, val_main_v9_apply, (slice_index b t h).1, (slice_index b t h).2.1, (slice_index b t h).2.2,
    gates_apply, quotient_eq_logistic]
  rfl

end Cert.ReferenceIdeal.CellValue

end
-- ==== Proof.BlockCell.lean ====
/-
  One grid point's block. The body loads a block of 8 samples `[8, 3, 60, 240]`, the transposed weights `[180, 360]` and
  the summed bias `[1, 360]`; it regroups the block's channels and rows into 180 features, swaps features and time,
  flattens (sample, time) into 1920 rows, multiplies by the weights, adds the bias to every row, cuts the 360 columns
  into the four gates and applies the cell's pointwise functions. Read at `(p, q, h)` — sample `p` of the block, time
  step `q`, hidden unit `h` — the stored value is the cell's output of the pre-activations

      pre g = (∑ k, block[p, k/60, k%60, q] · wT[k, g]) + bias[0, g].
-/
import proofs.«139123_j8718783611479_1_alg».proof.Proof.Gen.KernelIdeal.Skeleton
import proofs.«139123_j8718783611479_1_alg».proof.Proof.CellSpec
import Idealize.ShloMosaic.Lib.Pipeline.Value
import Idealize.ShloMosaic.Lib.ValueIdx
import Idealize.ShloMosaic.PureOps.Ideal.Laws

noncomputable section

open scoped BigOperators

namespace Cert.KernelIdeal.CellValue

open Cert.KernelIdeal Cert.KernelIdeal.Gen Idealize.ShloMosaic Idealize.ShloMosaic.ValueIdx Cert.ZeroStateCell

/-- Sample `p` of the block at time step `q` is row `p · 240 + q` of the flattened left operand. -/
abbrev flatRow (p : Fin 8) (q : Fin 240) : Fin 1920 := ⟨p.val * 240 + q.val, by have := p.isLt; have := q.isLt; omega⟩

/-- The left operand of the product: row `p · 240 + q`, column `k` is the block's entry at channel `k / 60`, row `k % 60`,
    column `q` of sample `p` (regroup, swap the last two axes, flatten). -/
theorem lhs_apply (v0 : Vec Ideal S8x3x60x240 .f32) (h1 : S8x3x60x240.ShapeCasts S8x180x240)
    (h2 : S8x180x240.Transposes [0, 2, 1] S8x240x180) (h3 : S8x240x180.ShapeCasts S1920x180)
    (p : Fin 8) (q : Fin 240) (k : Fin 180) :
    shapeCast S1920x180 (transpose S8x240x180 [0, 2, 1] (shapeCast S8x180x240 v0 h1) h2) h3 (ix2 (flatRow p q) k)
      = v0 (ix4 p (chan k) (row k) q) := by
  have hp := p.isLt; have hq := q.isLt; have hk := k.isLt
  rw [shapeCast_apply _ h3 (ix2 (flatRow p q) k) (ix3 p q k) (by
    rw [Shape.rowMajor_val_three, Shape.rowMajor_val_two]
    show (p.val * 240 + q.val) * 180 + k.val = (p.val * 240 + q.val) * 180 + k.val
    rfl)]
  rw [transpose_apply [0, 2, 1] _ h2 (ix3 p q k) (ix3 p k q) (fun b => match b with
    | ⟨0, _⟩ => rfl
    | ⟨1, _⟩ => rfl
    | ⟨2, _⟩ => rfl)]
  exact shapeCast_apply v0 h1 (ix3 p k q) (ix4 p (chan k) (row k) q) (by
    rw [Shape.rowMajor_val_four, Shape.rowMajor_val_three]
    show ((p.val * 3 + k.val / 60) * 60 + k.val % 60) * 240 + q.val = (p.val * 180 + k.val) * 240 + q.val
    omega)

/-- Off the contracted axis the left operand is read at the result's row, -/
theorem lhs_row (j : S1920x360.Idx) (c : dot_S1920x180_S180x360_S1920x360_1_0_0_1_n_n.contr.Idx) :
    (dot_S1920x180_S180x360_S1920x360_1_0_0_1_n_n.lhsIdx j c 0).val = (j 0).val := by
  unfold DotDims.lhsIdx
  rw [dif_neg (show ¬(0 : Fin S1920x180.rank) ∈ dot_S1920x180_S180x360_S1920x360_1_0_0_1_n_n.lhsBatch by decide),
    dif_pos (show (0 : Fin S1920x180.rank) ∈ dot_S1920x180_S180x360_S1920x360_1_0_0_1_n_n.lhsNonContracting by decide)]
  rfl

/-- and the right operand at the result's column. -/
theorem rhs_col (j : S1920x360.Idx) (c : dot_S1920x180_S180x360_S1920x360_1_0_0_1_n_n.contr.Idx) :
    (dot_S1920x180_S180x360_S1920x360_1_0_0_1_n_n.rhsIdx j c 1).val = (j 1).val := by
  unfold DotDims.rhsIdx
  rw [dif_neg (show ¬(1 : Fin S180x360.rank) ∈ dot_S1920x180_S180x360_S1920x360_1_0_0_1_n_n.rhsBatch by decide),
    dif_pos (show (1 : Fin S180x360.rank) ∈ dot_S1920x180_S180x360_S1920x360_1_0_0_1_n_n.rhsNonContracting by decide)]
  rfl

/-- The product into the zero accumulator, at row `r`, column `g`: the sum over the 180 contracted positions. -/
theorem product_apply {φ₁ φ₂ : FTy} (L : FVec Ideal S1920x180 φ₁) (R : FVec Ideal S180x360 φ₂) (r : Fin 1920) (g : Fin 360) :
    FloatOps.matmul dot_S1920x180_S180x360_S1920x360_1_0_0_1_n_n none L R (constant S1920x360 .f32 0x00000000#32) (ix2 r g)
      = ∑ k : Fin 180, L (ix2 r k) * R (ix2 k g) := by
  rw [Ideal.matmul_constant_zero_apply,
    ← Equiv.sum_comp (contrEquiv1 dot_S1920x180_S180x360_S1920x360_1_0_0_1_n_n 180 rfl rfl).symm]
  refine Finset.sum_congr rfl fun k _ => ?_
  have hk := contrEquiv1_symm_val dot_S1920x180_S180x360_S1920x360_1_0_0_1_n_n 180 rfl rfl k
  have el : dot_S1920x180_S180x360_S1920x360_1_0_0_1_n_n.lhsIdx (ix2 r g)
      ((contrEquiv1 dot_S1920x180_S180x360_S1920x360_1_0_0_1_n_n 180 rfl rfl).symm k) = ix2 r k := funext fun a => Fin.ext (by
    match a with
    | ⟨0, _⟩ => exact lhs_row _ _
    | ⟨1, _⟩ => exact (dot_S1920x180_S180x360_S1920x360_1_0_0_1_n_n.lhsIdx_val_of_single rfl _ _).trans hk)
  have er : dot_S1920x180_S180x360_S1920x360_1_0_0_1_n_n.rhsIdx (ix2 r g)
      ((contrEquiv1 dot_S1920x180_S180x360_S1920x360_1_0_0_1_n_n 180 rfl rfl).symm k) = ix2 k g := funext fun a => Fin.ext (by
    match a with
    | ⟨0, _⟩ => exact (dot_S1920x180_S180x360_S1920x360_1_0_0_1_n_n.rhsIdx_val_of_single rfl _ _).trans hk
    | ⟨1, _⟩ => exact rhs_col _ _)
  rw [el, er]

/-- The bias row stretched over the 1920 rows: every row reads the one row. -/
theorem bias_apply (v : FVec Ideal S1x360 .f32) (hb : S1x360.Broadcasts S1920x360) (r : Fin 1920) (g : Fin 360) :
    broadcastTo S1920x360 v hb (ix2 r g) = v (ix2 (0 : Fin 1) g) :=
  broadcastTo_apply v hb (ix2 r g) (ix2 (0 : Fin 1) g) (fun a => match a with
    | ⟨0, _⟩ => by show (0 : Nat) = if (1 : Nat) = 1 then 0 else r.val; rw [if_pos rfl]
    | ⟨1, _⟩ => by show g.val = if (360 : Nat) = 1 then 0 else g.val; rw [if_neg (by decide)])

/-- A gate's slice: 90 columns from column `off`. -/
theorem gate_slice_apply {α : Type} (v : S1920x360.Idx → α) (off : Nat) (hs : S1920x360.Slices ![0, off] S1920x90)
    (r : Fin 1920) (h : Fin 90) (hlt : off + h.val < 360) :
    extractStridedSlice S1920x90 ![0, off] v hs (ix2 r h) = v (ix2 r (⟨off + h.val, hlt⟩ : Fin 360)) :=
  extractStridedSlice_apply ![0, off] v hs (ix2 r h) (ix2 r (⟨off + h.val, hlt⟩ : Fin 360)) (fun a => match a with
    | ⟨0, _⟩ => by show r.val = 0 + r.val; omega
    | ⟨1, _⟩ => rfl)

/-- The stored block: entry `(p, q, h)` is row `p · 240 + q`, column `h` of the flat result. -/
theorem unflatten_apply {α : Type} (v : S1920x90.Idx → α) (hc : S1920x90.ShapeCasts S8x240x90) (p : Fin 8) (q : Fin 240) (h : Fin 90) :
    shapeCast S8x240x90 v hc (ix3 p q h) = v (ix2 (flatRow p q) h) :=
  shapeCast_apply v hc (ix3 p q h) (ix2 (flatRow p q) h) (by
    rw [Shape.rowMajor_val_two, Shape.rowMajor_val_three]
    show (p.val * 240 + q.val) * 90 + h.val = (p.val * 240 + q.val) * 90 + h.val
    rfl)

/-- The block's gate pre-activations for sample `p`, step `q`. -/
def blockPre (v0 : Vec Ideal S8x3x60x240 .f32) (v4 : Vec Ideal S180x360 .f32) (v6 : Vec Ideal S1x360 .f32)
    (p : Fin 8) (q : Fin 240) (g : Fin 360) : EReal :=
  (∑ k : Fin 180, v0 (ix4 p (chan k) (row k) q) * v4 (ix2 k g)) + v6 (ix2 (0 : Fin 1) g)

/-- The product plus the stretched bias, at row `p · 240 + q`, column `g`, is that pre-activation (the two casts to the
    same shape are the identity, the narrowing to bf16 is the identity on the extended reals). -/
theorem gates_apply (v0 : Vec Ideal S8x3x60x240 .f32) (v4 : Vec Ideal S180x360 .f32) (v6 : Vec Ideal S1x360 .f32)
    (h1 : S8x3x60x240.ShapeCasts S8x180x240) (h2 : S8x180x240.Transposes [0, 2, 1] S8x240x180)
    (h3 : S8x240x180.ShapeCasts S1920x180) (h4 : S180x360.ShapeCasts S180x360) (h5 : S1x360.ShapeCasts S1x360)
    (hn : FTy.bits .bf16 < FTy.bits .f32) (hb : S1x360.Broadcasts S1920x360)
    (p : Fin 8) (q : Fin 240) (g : Fin 360) :
    addf (F := Ideal) (FloatOps.matmul dot_S1920x180_S180x360_S1920x360_1_0_0_1_n_n none
        (truncf .bf16 (shapeCast S1920x180 (transpose S8x240x180 [0, 2, 1] (shapeCast S8x180x240 v0 h1) h2) h3) hn)
        (truncf .bf16 (shapeCast S180x360 v4 h4) hn)
        (constant S1920x360 .f32 0x00000000#32))
      (broadcastTo S1920x360 (shapeCast S1x360 v6 h5) hb) (ix2 (flatRow p q) g)
      = blockPre v0 v4 v6 p q g := by
  rw [addf_apply, product_apply, bias_apply, shapeCast_self, shapeCast_self]
  unfold blockPre
  congr 1
  refine Finset.sum_congr rfl fun k _ => ?_
  rw [truncf_apply, truncf_apply, lhs_apply]

/-- THE BLOCK AT AN INDEX: what the body stores at `(p, q, h)` is the cell's output of the block's pre-activations. -/
theorem payload_apply (v0 : Vec Ideal S8x3x60x240 .f32) (v4 : Vec Ideal S180x360 .f32) (v6 : Vec Ideal S1x360 .f32)
    (p : Fin 8) (q : Fin 240) (h : Fin 90) :
    k0_pay1 (F := Ideal) v0 v4 v6 (ix3 p q h) = cellOut (blockPre v0 v4 v6 p q) h := by
  have hh := h.isLt
  unfold k0_pay1
  dsimp only
  rw [unflatten_apply]
  simp only [Idealize.ShloMosaic.logistic, Idealize.ShloMosaic.tanh, Idealize.ShloMosaic.mulf]
  rw [gate_slice_apply _ 270 _ (flatRow p q) h (by omega), gate_slice_apply _ 0 _ (flatRow p q) h (by omega),
    gate_slice_apply _ 180 _ (flatRow p q) h (by omega), gates_apply, gates_apply, gates_apply]
  unfold cellOut
  have e0 : (⟨0 + h.val, by omega⟩ : Fin 360) = ⟨h.val, by omega⟩ := Fin.ext (Nat.zero_add _)
  rw [e0]
  rfl

end Cert.KernelIdeal.CellValue

end
-- ==== Proof.BatchTiles.lean ====
/-
  From blocks to the array. The grid has 256 points; point `t` works on samples `8t … 8t + 7`: it reads that slab of
  `x`, the whole transposed weights and the whole summed bias, and writes that slab of the result. The weights window's
  array is `W` transposed and the bias window's array is `b_ih + b_hh` as one row, both written before the launch. So
  the block's pre-activations are the cell array's pre-activations of sample `8t + p` (the bias added as one sum instead
  of one term after the other), what point `t` writes back is slab `t` of the cell array, and the 256 slabs cover it.
-/
import proofs.«139123_j8718783611479_1_alg».proof.Proof.Gen.KernelIdeal.Value
import proofs.«139123_j8718783611479_1_alg».proof.Proof.BlockCell
import Idealize.ShloMosaic.Lib.Pipeline.Value
import Idealize.ShloMosaic.Lib.StableHlo.Run
import Idealize.ShloMosaic.Lib.Tactic

noncomputable section

open scoped BigOperators

namespace Cert.KernelIdeal.CellValue

open Cert.KernelIdeal Cert.KernelIdeal.Gen Idealize.ShloMosaic Idealize.ShloMosaic.TcCoe Idealize.SL.Sem
open Idealize.ShloMosaic.ValueIdx Cert.ZeroStateCell
open Idealize.ShloMosaic.Pipeline (Dat)

variable (m : (ℓ : Loc nD τ sig) → Buf (Elt Ideal) ℓ) (ρ : Dev nD → PrngReg)

theorem zero4 : (![0, 0, 0, 0] : Fin 4 → Nat) = fun _ => 0 := funext fun a => by fin_cases a <;> rfl
theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the grid: the input slab and the output slab move along the sample axis with the point,
    every other block index is zero. -/
theorem slab_index : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-! ## The three input blocks at a point, read at an index -/

/-- The weights window's array at the launch is `W` transposed. -/
theorem weights_at_launch (c : Dev nD) :
    (V m c main_v0 : S180x360.Idx → EReal)
      = transpose S180x360 [1, 0] (m ((c : Thread nD τ).loc main_arg1)) transposes_S360x180_S180x360_1_0 := by
  dsimp only [Gen.V, Gen.hostOps0]
  after_results

/-- The bias window's array at the launch is the sum of the two biases as one row. -/
theorem bias_at_launch (c : Dev nD) :
    (V m c main_v2 : S1x360.Idx → EReal)
      = shapeCast S1x360 (addf (F := Ideal) (s := S360) (φ := .f32) (m ((c : Thread nD τ).loc main_arg3)) (m ((c : Thread nD τ).loc main_arg4))) shapeCasts_S360_S1x360 := by
  dsimp only [Gen.V, Gen.hostOps0]
  after_results
  rfl

/-- Entry `(p, ch, r, q)` of the input block at point `t` is entry `(8t + p, ch, r, q)` of `x`. -/
theorem slab_apply (c : Dev nD) (t : Fin cfg0.N) (p : Fin 8) (ch : Fin 3) (r : Fin 60) (q : Fin 240) (b : Fin 2048)
    (hb : b.val = t.val * 8 + p.val) :
    (iblk m c 0 t : Vec Ideal S8x3x60x240 .f32) (ix4 p ch r q)
      = (m ((c : Thread nD τ).loc main_arg0) : S2048x3x60x240.Idx → EReal) (ix4 b ch r q) := by
  obtain ⟨e0, e1, e2, e3, -⟩ := slab_index t
  unfold iblk
  rw [View.read_apply]
  show V m c main_arg0 _ = m (c.tc.loc main_arg0) _
  rw [V_main_arg0]
  congr 1
  funext a
  apply Fin.ext
  match a with
  | ⟨0, _⟩ => show win0_0.index t (0 : Fin 4) * 8 + 1 * p.val = b.val; rw [e0, hb]; omega
  | ⟨1, _⟩ => show win0_0.index t (1 : Fin 4) * 3 + 1 * ch.val = ch.val; rw [e1]; omega
  | ⟨2, _⟩ => show win0_0.index t (2 : Fin 4) * 60 + 1 * r.val = r.val; rw [e2]; omega
  | ⟨3, _⟩ => show win0_0.index t (3 : Fin 4) * 240 + 1 * q.val = q.val; rw [e3]; omega

/-- Entry `(k, g)` of the weights block at any point is `W[g, k]`. -/
theorem weights_apply (c : Dev nD) (t : Fin cfg0.N) (k : Fin 180) (g : Fin 360) :
    (iblk m c 1 t : Vec Ideal S180x360 .f32) (ix2 k g)
      = (m ((c : Thread nD τ).loc main_arg1) : S360x180.Idx → EReal) (ix2 g k) := by
  obtain ⟨-, -, -, -, e0, e1, -⟩ := slab_index t
  unfold iblk
  rw [View.read_apply]
  show V m c main_v0 _ = m (c.tc.loc main_arg1) _
  rw [weights_at_launch]
  refine transpose_apply [1, 0] _ _ _ (ix2 g k) (fun b => ?_)
  match b with
  | ⟨0, _⟩ => show k.val = win0_1.index t (0 : Fin 2) * 180 + 1 * k.val; rw [e0]; omega
  | ⟨1, _⟩ => show g.val = win0_1.index t (1 : Fin 2) * 360 + 1 * g.val; rw [e1]; omega

/-- The two biases of gate unit `g`, added. -/
def biasSum (bi bh : S360.Idx → EReal) (g : Fin 360) : EReal := bi (ix1 g) + bh (ix1 g)

/-- Entry `(0, g)` of the bias block at any point is `b_ih[g] + b_hh[g]`. -/
theorem bias_sum_apply (c : Dev nD) (t : Fin cfg0.N) (g : Fin 360) :
    (iblk m c 2 t : Vec Ideal S1x360 .f32) (ix2 (0 : Fin 1) g)
      = biasSum (m ((c : Thread nD τ).loc main_arg3)) (m ((c : Thread nD τ).loc main_arg4)) g := by
  obtain ⟨-, -, -, -, -, -, e0, e1, -⟩ := slab_index t
  unfold iblk
  rw [View.read_apply]
  show V m c main_v2 _ = _
  rw [bias_at_launch]
  refine (shapeCast_apply _ _ _ (ix1 g) ?_).trans (addf_apply _ _ _)
  rw [Shape.rowMajor_val_one, Shape.rowMajor_val_two]
  show g.val = (win0_2.index t (0 : Fin 2) * 1 + 1 * 0) * 360 + (win0_2.index t (1 : Fin 2) * 360 + 1 * g.val)
  rw [e0, e1]; omega

/-- The block's pre-activations for sample `p` of point `t` are the cell array's for sample `8t + p`. -/
theorem blockPre_eq (c : Dev nD) (t : Fin cfg0.N) (p : Fin 8) (q : Fin 240) (b : Fin 2048) (hb : b.val = t.val * 8 + p.val) :
    blockPre (iblk m c 0 t) (iblk m c 1 t) (iblk m c 2 t) p q
      = preGate (m ((c : Thread nD τ).loc main_arg0)) (m ((c : Thread nD τ).loc main_arg1))
          (m ((c : Thread nD τ).loc main_arg3)) (m ((c : Thread nD τ).loc main_arg4)) b q := by
  funext g
  unfold blockPre preGate
  rw [bias_sum_apply]
  unfold biasSum
  rw [preGate_bias_sum]
  congr 2
  refine Finset.sum_congr rfl fun k _ => ?_
  rw [slab_apply m c t p (chan k) (row k) q b hb, weights_apply]

/-! ## What a point writes back, and the cover -/

/-- The cell array of the arguments as launched. -/
abbrev result (c : Dev nD) : Buf (Elt Ideal) ((c : Thread nD τ).loc main_v3) :=
  cellArray (m ((c : Thread nD τ).loc main_arg0)) (m ((c : Thread nD τ).loc main_arg1))
    (m ((c : Thread nD τ).loc main_arg3)) (m ((c : Thread nD τ).loc main_arg4))

/-- What point `t` writes back is slab `t` of the cell array. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zero3]
  simp only [View.ld_unit_zero (S := S8x3x60x240) zero4, View.ld_unit_zero (S := S180x360) zero2, View.ld_unit_zero (S := S1x360) zero2]
  obtain ⟨-, -, -, -, -, -, -, -, e0, e1, e2⟩ := slab_index t
  funext (j : S8x240x90.Idx)
  obtain ⟨p, q, h, rfl⟩ : ∃ (p : Fin 8) (q : Fin 240) (h : Fin 90), j = ix3 p q h := ⟨j 0, j 1, j 2, eq_ix3 j⟩
  have hp := p.isLt; have ht := t.isLt
  have hN : cfg0.N = 256 := N_0
  refine (payload_apply _ _ _ p q h).trans ?_
  rw [blockPre_eq m c t p q ⟨t.val * 8 + p.val, by omega⟩ rfl]
  show _ = result m c (((cfg0.win 3).blk t).view.emb (ix3 p q h))
  unfold result cellArray
  congr 1
  · congr 1
    · apply Fin.ext
      show t.val * 8 + p.val = win0_3.index t (0 : Fin 3) * 8 + 1 * p.val
      rw [e0]; omega
    · apply Fin.ext
      show q.val = win0_3.index t (1 : Fin 3) * 240 + 1 * q.val
      rw [e1]; omega
  · apply Fin.ext
    show h.val = win0_3.index t (2 : Fin 3) * 90 + 1 * h.val
    rw [e2]; omega

/-- An index of the result is in point `t`'s slab iff each coordinate is in the slab's range on its axis. -/
theorem mem_slab (t : Fin cfg0.N) (i : S2048x240x90.Idx) :
    i ∈ ((cfg0.win 3).blk t).view.set ↔ ∀ a : Fin 3, win0_3.index t a * S8x240x90.size a ≤ (i a).val
      ∧ (i a).val < win0_3.index t a * S8x240x90.size a + S8x240x90.size a := by
  show i ∈ ((View.whole main_v3).slice (win0_3.rect t)).set ↔ _
  rw [View.set_slice_whole, Rect.mem_set_unit]
  exact Iff.rfl

/-- Sample `b` lies in the slab of point `b / 8`: the 256 slabs cover the result. -/
theorem covered (i : S2048x240x90.Idx) : ∃ t : Fin cfg0.N, (cfg0.win 3).flush t = true ∧ i ∈ ((cfg0.win 3).blk t).view.set := by
  have h0 : (i 0).val < 2048 := (i 0).isLt
  have h1 : (i 1).val < 240 := (i 1).isLt
  have h2 : (i 2).val < 90 := (i 2).isLt
  have hN : cfg0.N = 256 := N_0
  let t : Fin cfg0.N := ⟨(i 0).val / 8, by omega⟩
  obtain ⟨-, -, -, -, -, -, -, -, e0, e1, e2⟩ := slab_index t
  refine ⟨t, flush0_3 t, ?_⟩
  rw [mem_slab]
  intro a
  match a with
  | ⟨0, _⟩ =>
    show win0_3.index t (0 : Fin 3) * 8 ≤ (i 0).val ∧ (i 0).val < win0_3.index t (0 : Fin 3) * 8 + 8
    rw [e0]; show (i 0).val / 8 * 8 ≤ (i 0).val ∧ (i 0).val < (i 0).val / 8 * 8 + 8; omega
  | ⟨1, _⟩ =>
    show win0_3.index t (1 : Fin 3) * 240 ≤ (i 1).val ∧ (i 1).val < win0_3.index t (1 : Fin 3) * 240 + 240
    rw [e1]; omega
  | ⟨2, _⟩ =>
    show win0_3.index t (2 : Fin 3) * 90 ≤ (i 2).val ∧ (i 2).val < win0_3.index t (2 : Fin 3) * 90 + 90
    rw [e2]; omega

/-- So the result array ends holding the cell array. -/
theorem final (c : Dev nD) : (dats m 0 c).arrAt 3 cfg0.N = result m c :=
  (dats m 0 c).arrAt_eq_of_cover 3 (result m c) (fun t _ => flushed_eq m c t) covered

/-- The kernel's run, read: the result at the cell array of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.CellValue

end
-- ==== Proof.lean ====
/-
  A batch of 2048 images [3, 60, 240] is read column by column: column `t` of an image, its 3 × 60 entries taken as 180
  features, is time step `t` of a sequence of 240 steps. Every step goes through one LSTM cell started from ZERO hidden and
  cell state, so the recurrent weights `W_hh` never contribute, the forget gate multiplies zero, and the steps are
  independent: with `pre g = (∑ k, x[b, k/60, k%60, t] · W_ih[g, k]) + b_ih[g] + b_hh[g]`, the result at `(b, t, h)` is

      σ (σ (pre (270 + h)) · tanh (σ (pre h) · tanh (pre (180 + h)))),        σ z = 1 / (1 + e⁻ᶻ).

  The kernel works on slabs of 8 samples, multiplies the regrouped slab by the transposed weights in one product, adds
  the two biases already summed, and applies the cell; the reference transposes the whole batch, contracts with the
  weights, adds the biases one after the other, and spells each σ as a quotient. On the extended reals the two are the
  same function of the arguments at every index: the products and sums are the same sums in the same order, addition is
  associative (so the bias may be added as one sum), and `1 / (1 + e⁻ᶻ)` is the logistic function by definition —
  nothing here needs the inputs to be finite.

  CellSpec states that function; RefCell reads the reference's stages as it; BlockCell reads one grid point's block at an
  index; BatchTiles identifies each block with a slab of the function and covers the result with the 256 slabs. The
  three frames are the generated ones (the reference's is its generated run with the result dropped); no rewrite was
  applied between the kernel and its idealization, so that claim is trivial.
-/
import proofs.«139123_j8718783611479_1_alg».proof.Defs
import proofs.«139123_j8718783611479_1_alg».proof.Proof.Gen.Kernel
import proofs.«139123_j8718783611479_1_alg».proof.Proof.Gen.Kernel.Skeleton
import proofs.«139123_j8718783611479_1_alg».proof.Proof.Gen.Kernel.Launch
import proofs.«139123_j8718783611479_1_alg».proof.Proof.Gen.Kernel.Points
import proofs.«139123_j8718783611479_1_alg».proof.Proof.Gen.Kernel.Frame
import proofs.«139123_j8718783611479_1_alg».proof.Proof.Gen.KernelIdeal
import proofs.«139123_j8718783611479_1_alg».proof.Proof.Gen.KernelIdeal.Skeleton
import proofs.«139123_j8718783611479_1_alg».proof.Proof.Gen.KernelIdeal.Launch
import proofs.«139123_j8718783611479_1_alg».proof.Proof.Gen.KernelIdeal.Points
import proofs.«139123_j8718783611479_1_alg».proof.Proof.Gen.KernelIdeal.Frame
import proofs.«139123_j8718783611479_1_alg».proof.Proof.Gen.ReferenceIdeal
import proofs.«139123_j8718783611479_1_alg».proof.Proof.Gen.Pre_finite_inputs
import proofs.«139123_j8718783611479_1_alg».proof.Proof.Gen.KernelIdeal.Value
import proofs.«139123_j8718783611479_1_alg».proof.Proof.Gen.ReferenceIdeal.Run
import proofs.«139123_j8718783611479_1_alg».proof.Proof.Gen.ReferenceIdeal.Read
import proofs.«139123_j8718783611479_1_alg».proof.Proof.CellSpec
import proofs.«139123_j8718783611479_1_alg».proof.Proof.RefCell
import proofs.«139123_j8718783611479_1_alg».proof.Proof.BlockCell
import proofs.«139123_j8718783611479_1_alg».proof.Proof.BatchTiles
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the cell array of the arguments: the kernel's 256 slabs cover it, the
    reference's last stage is it, and the arguments agree. -/
theorem algebraic : Cert.algebraic_KernelIdeal_ReferenceIdeal := by
  intro m ρ m' ρ' _ hagree
  refine ⟨fun c => Cert.KernelIdeal.CellValue.result m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.CellValue.result_eq,
    (hagree c).1, (hagree c).2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
